-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x1024x64 : Shape := ⟨3, ![64, 1024, 64]⟩
abbrev S_ : Shape := ⟨0, ![]⟩

class Facts : Prop where
  bcast_S_S64x1024x64 : S_.BroadcastsInDim S64x1024x64 (![] : Fin 0 → Fin S64x1024x64.rank)
  reducesTo_S64x1024x64_S_d0_1_2 : S64x1024x64.ReducesTo [0, 1, 2] S_
  h_S_ : 0 < S_.numel

variable [Facts]

def fn {F : FTy → Type} [FloatOps F] (main_arg0 : FVec F S64x1024x64 .f32) (main_arg1 : FVec F S64x1024x64 .f32) (main_arg2 : FVec F S64x1024x64 .f32) : IVec S_ 1 :=
  let main_v0 : FVec F S64x1024x64 .f32 := Host.absf main_arg0
  let main_cst : FVec F S_ .f32 := constant S_ .f32 0x7F800000#32
  let main_v1 : FVec F S64x1024x64 .f32 := broadcastInDim S64x1024x64 ![] bcast_S_S64x1024x64 main_cst
  let main_v2 : IVec S64x1024x64 1 := cmpf .olt main_v0 main_v1
  let main_c : IVec S_ 1 := constantI S_ 1 1#1
  let main_v3 : IVec S_ 1 := (fun x v => Host.reduce IntOp.andi x v reducesTo_S64x1024x64_S_d0_1_2 h_S_) main_v2 main_c
  let main_v4 : FVec F S64x1024x64 .f32 := Host.absf main_arg1
  let main_cst_0 : FVec F S_ .f32 := constant S_ .f32 0x7F800000#32
  let main_v5 : FVec F S64x1024x64 .f32 := broadcastInDim S64x1024x64 ![] bcast_S_S64x1024x64 main_cst_0
  let main_v6 : IVec S64x1024x64 1 := cmpf .olt main_v4 main_v5
  let main_c_1 : IVec S_ 1 := constantI S_ 1 1#1
  let main_v7 : IVec S_ 1 := (fun x v => Host.reduce IntOp.andi x v reducesTo_S64x1024x64_S_d0_1_2 h_S_) main_v6 main_c_1
  let main_v8 : IVec S_ 1 := andi main_v3 main_v7
  let main_v9 : FVec F S64x1024x64 .f32 := Host.absf main_arg2
  let main_cst_2 : FVec F S_ .f32 := constant S_ .f32 0x7F800000#32
  let main_v10 : FVec F S64x1024x64 .f32 := broadcastInDim S64x1024x64 ![] bcast_S_S64x1024x64 main_cst_2
  let main_v11 : IVec S64x1024x64 1 := cmpf .olt main_v9 main_v10
  let main_c_3 : IVec S_ 1 := constantI S_ 1 1#1
  let main_v12 : IVec S_ 1 := (fun x v => Host.reduce IntOp.andi x v reducesTo_S64x1024x64_S_d0_1_2 h_S_) main_v11 main_c_3
  let main_v13 : IVec S_ 1 := andi main_v8 main_v12
  main_v13
-- ==== Kernel.lean ====
abbrev S64x1024x64 : Shape := ⟨3, ![64, 1024, 64]⟩
abbrev S2x1024x64 : Shape := ⟨3, ![2, 1024, 64]⟩
abbrev S2x1024x1024 : Shape := ⟨3, ![2, 1024, 1024]⟩
abbrev S2x1024 : Shape := ⟨2, ![2, 1024]⟩
abbrev S2x1024x1 : Shape := ⟨3, ![2, 1024, 1]⟩

abbrev nBuf : Space → Nat
  | .hbm => 4
  | .vmem => 8
  | .smem => 0
  | _ => 0

abbrev bufTy : (tb : Table) → Fin (tcTables nBuf tb) → BufTy
  | .hbm, ⟨0, _⟩ => ⟨S64x1024x64, .f32⟩
  | .hbm, ⟨1, _⟩ => ⟨S64x1024x64, .f32⟩
  | .hbm, ⟨2, _⟩ => ⟨S64x1024x64, .f32⟩
  | .hbm, ⟨3, _⟩ => ⟨S64x1024x64, .f32⟩
  | .local _ .vmem, ⟨0, _⟩ => ⟨S2x1024x64, .f32⟩
  | .local _ .vmem, ⟨1, _⟩ => ⟨S2x1024x64, .f32⟩
  | .local _ .vmem, ⟨2, _⟩ => ⟨S2x1024x64, .f32⟩
  | .local _ .vmem, ⟨3, _⟩ => ⟨S2x1024x64, .f32⟩
  | .local _ .vmem, ⟨4, _⟩ => ⟨S2x1024x64, .f32⟩
  | .local _ .vmem, ⟨5, _⟩ => ⟨S2x1024x64, .f32⟩
  | .local _ .vmem, ⟨6, _⟩ => ⟨S2x1024x64, .f32⟩
  | .local _ .vmem, ⟨7, _⟩ => ⟨S2x1024x64, .f32⟩
  | _, _ => ⟨S64x1024x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2x1024x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2x1024x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2x1024x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2x1024x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  inb_S2x1024x64_S2x1024x64_0_0_0 : ∀ a, (![0, 0, 0] : Fin 3 → Nat) a + S2x1024x64.size a ≤ S2x1024x64.size a
  h_S2x1024x64 : 0 < S2x1024x64.numel
  bitsLt_bf16_f32 : FTy.bits .bf16 < FTy.bits .f32
  reduces_S2x1024x1024_S2x1024 : S2x1024x1024.Reduces [2] S2x1024
  shapeCasts_S2x1024_S2x1024x1 : S2x1024.ShapeCasts S2x1024x1
  broadcasts_S2x1024x1_S2x1024x1024 : S2x1024x1.Broadcasts S2x1024x1024
  broadcasts_S2x1024x1_S2x1024x64 : S2x1024x1.Broadcasts S2x1024x64
  dot_S2x1024x64_S2x1024x64_S2x1024x1024_2_2_1_1_0_0_wf : DotDims.WF S2x1024x64 S2x1024x64 S2x1024x1024 [2] [2] [1] [1] [0] [0]
  dot_S2x1024x1024_S2x1024x64_S2x1024x64_2_1_1_2_0_0_wf : DotDims.WF S2x1024x1024 S2x1024x64 S2x1024x64 [2] [1] [1] [2] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2x1024x64.size a ≤ S64x1024x64.size a
  hwx0_0 : ∀ i : grid0.Coords, EltTy.bits .f32 = 32 ∨ (Rect.block (s := S64x1024x64) S2x1024x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2x1024x64.size a ≤ S64x1024x64.size a
  hwx0_1 : ∀ i : grid0.Coords, EltTy.bits .f32 = 32 ∨ (Rect.block (s := S64x1024x64) S2x1024x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2x1024x64.size a ≤ S64x1024x64.size a
  hwx0_2 : ∀ i : grid0.Coords, EltTy.bits .f32 = 32 ∨ (Rect.block (s := S64x1024x64) S2x1024x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2x1024x64.size a ≤ S64x1024x64.size a
  hwx0_3 : ∀ i : grid0.Coords, EltTy.bits .f32 = 32 ∨ (Rect.block (s := S64x1024x64) S2x1024x64.size (cc0_transform_3 i) (hinb0_3 i)).WholeWords (EltTy.packing .f32)

variable [Facts₀]

def dot_S2x1024x64_S2x1024x64_S2x1024x1024_2_2_1_1_0_0 : DotDims S2x1024x64 S2x1024x64 S2x1024x1024 where
  lhsContracting := [2]
  rhsContracting := [2]
  lhsNonContracting := [1]
  rhsNonContracting := [1]
  lhsBatch := [0]
  rhsBatch := [0]
  wf := dot_S2x1024x64_S2x1024x64_S2x1024x1024_2_2_1_1_0_0_wf
def dot_S2x1024x1024_S2x1024x64_S2x1024x64_2_1_1_2_0_0 : DotDims S2x1024x1024 S2x1024x64 S2x1024x64 where
  lhsContracting := [2]
  rhsContracting := [1]
  lhsNonContracting := [1]
  rhsNonContracting := [2]
  lhsBatch := [0]
  rhsBatch := [0]
  wf := dot_S2x1024x1024_S2x1024x64_S2x1024x64_2_1_1_2_0_0_wf

abbrev win0_0 : Pipeline.Window sig grid0 :=
  Pipeline.Window.ofSpec (Memref.whole main_arg0) S2x1024x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2x1024x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S2x1024x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S2x1024x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S64x1024x64 : Shape := ⟨3, ![64, 1024, 64]⟩
abbrev S64x1024x1024 : Shape := ⟨3, ![64, 1024, 1024]⟩
abbrev S_ : Shape := ⟨0, ![]⟩
abbrev S64x1024 : Shape := ⟨2, ![64, 1024]⟩
abbrev S64x1024x1 : Shape := ⟨3, ![64, 1024, 1]⟩

abbrev nBuf : Space → Nat
  | .hbm => 22
  | .vmem => 0
  | .smem => 0
  | _ => 0

abbrev bufTy : (tb : Table) → Fin (tcTables nBuf tb) → BufTy
  | .hbm, ⟨0, _⟩ => ⟨S64x1024x64, .f32⟩
  | .hbm, ⟨1, _⟩ => ⟨S64x1024x64, .f32⟩
  | .hbm, ⟨2, _⟩ => ⟨S64x1024x64, .f32⟩
  | .hbm, ⟨3, _⟩ => ⟨S64x1024x1024, .f32⟩
  | .hbm, ⟨4, _⟩ => ⟨S_, .f32⟩
  | .hbm, ⟨5, _⟩ => ⟨S64x1024x1024, .f32⟩
  | .hbm, ⟨6, _⟩ => ⟨S64x1024x1024, .f32⟩
  | .hbm, ⟨7, _⟩ => ⟨S_, .f32⟩
  | .hbm, ⟨8, _⟩ => ⟨S64x1024, .f32⟩
  | .hbm, ⟨9, _⟩ => ⟨S_, .f32⟩
  | .hbm, ⟨10, _⟩ => ⟨S64x1024, .f32⟩
  | .hbm, ⟨11, _⟩ => ⟨S64x1024, .f32⟩
  | .hbm, ⟨12, _⟩ => ⟨S64x1024x1, .f32⟩
  | .hbm, ⟨13, _⟩ => ⟨S64x1024x1024, .f32⟩
  | .hbm, ⟨14, _⟩ => ⟨S64x1024x1024, .f32⟩
  | .hbm, ⟨15, _⟩ => ⟨S64x1024x1024, .f32⟩
  | .hbm, ⟨16, _⟩ => ⟨S_, .f32⟩
  | .hbm, ⟨17, _⟩ => ⟨S64x1024, .f32⟩
  | .hbm, ⟨18, _⟩ => ⟨S64x1024x1, .f32⟩
  | .hbm, ⟨19, _⟩ => ⟨S64x1024x1024, .f32⟩
  | .hbm, ⟨20, _⟩ => ⟨S64x1024x1024, .f32⟩
  | .hbm, ⟨21, _⟩ => ⟨S64x1024x64, .f32⟩
  | _, _ => ⟨S64x1024x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_cst_1 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_2 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩

abbrev nD : Nat := 1
abbrev τ : Topo := Topo.v7x

variable {F : FTy → Type} [FloatOps F]

class Facts₀ : Prop where
  bcast_S_S64x1024x1024 : S_.BroadcastsInDim S64x1024x1024 (![] : Fin 0 → Fin S64x1024x1024.rank)
  reducesTo_S64x1024x1024_S64x1024_d2 : S64x1024x1024.ReducesTo [2] S64x1024
  h_S_ : 0 < S_.numel
  bcast_S_S64x1024 : S_.BroadcastsInDim S64x1024 (![] : Fin 0 → Fin S64x1024.rank)
  bcast_S64x1024_S64x1024x1_0_1 : S64x1024.BroadcastsInDim S64x1024x1 (![0, 1] : Fin 2 → Fin S64x1024x1.rank)
  bcast_S64x1024x1_S64x1024x1024_0_1_2 : S64x1024x1.BroadcastsInDim S64x1024x1024 (![0, 1, 2] : Fin 3 → Fin S64x1024x1024.rank)
  dot_S64x1024x64_S64x1024x64_S64x1024x1024_2_2_1_1_0_0_wf : DotDims.WF S64x1024x64 S64x1024x64 S64x1024x1024 [2] [2] [1] [1] [0] [0]
  dot_S64x1024x1024_S64x1024x64_S64x1024x64_2_1_1_2_0_0_wf : DotDims.WF S64x1024x1024 S64x1024x64 S64x1024x64 [2] [1] [1] [2] [0] [0]

variable [Facts₀]

def dot_S64x1024x64_S64x1024x64_S64x1024x1024_2_2_1_1_0_0 : DotDims S64x1024x64 S64x1024x64 S64x1024x1024 where
  lhsContracting := [2]
  rhsContracting := [2]
  lhsNonContracting := [1]
  rhsNonContracting := [1]
  lhsBatch := [0]
  rhsBatch := [0]
  wf := dot_S64x1024x64_S64x1024x64_S64x1024x1024_2_2_1_1_0_0_wf
def dot_S64x1024x1024_S64x1024x64_S64x1024x64_2_1_1_2_0_0 : DotDims S64x1024x1024 S64x1024x64 S64x1024x64 where
  lhsContracting := [2]
  rhsContracting := [1]
  lhsNonContracting := [1]
  rhsNonContracting := [2]
  lhsBatch := [0]
  rhsBatch := [0]
  wf := dot_S64x1024x1024_S64x1024x64_S64x1024x64_2_1_1_2_0_0_wf

class Facts : Prop extends Facts₀ where

variable [Facts]
-- ==== Proof.LibExtReals.lean ====
/-
  Real numbers inside the extended reals: finite sums, the law that moves a division by a nonzero real and a product
  across a double sum, and the two constant words used by the convolution (1 and ε).

  On the extended reals a sum cannot be moved across a product in general (it fails at ±∞). When every entry is a real
  number the computation is one in ℝ, where it is the distributive law and an exchange of the two sums:
      Σ_k ((Σ_{e ∈ E} X(e, k)) / c) · W(k)  =  (Σ_{e ∈ E} Σ_k X(e, k) · W(k)) · (1 / c)     (c a nonzero real).
-/
import Idealize.ShloMosaic.PureOps.Ideal
import Idealize.ShloMosaic.PureOps.Ideal.Laws

noncomputable section

open scoped BigOperators

namespace Cert.Net

open Idealize.ShloMosaic

/-! ## Finite sums of reals -/

/-- The inclusion of ℝ commutes with a finite sum. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The inclusion of ℝ commutes with the larger of two. -/
theorem coe_max (a b : ℝ) : ((max a b : ℝ) : EReal) = max (a : EReal) (b : EReal) := by
  rcases le_total a b with h | h
  · rw [max_eq_right h, max_eq_right (EReal.coe_le_coe_iff.2 h)]
  · rw [max_eq_left h, max_eq_left (EReal.coe_le_coe_iff.2 h)]

/-- A finite sum of ones is a nonnegative real. -/
theorem sum_ones_real {ι : Type} (s : Finset ι) : ∃ r : ℝ, 0 ≤ r ∧ ∑ _j ∈ s, (1 : EReal) = (r : EReal) := by
  classical
  induction s using Finset.induction_on with
  | empty => exact ⟨0, le_refl _, by simp⟩
  | insert a s ha ih =>
    obtain ⟨r, hr, h⟩ := ih
    refine ⟨1 + r, by linarith, ?_⟩
    rw [Finset.sum_insert ha, h, EReal.coe_add, EReal.coe_one]

/-! ## The law -/

/-- In ℝ: scaling each inner sum by d and then summing against W is summing the products first and scaling once. -/
theorem real_law {ι κ : Type} [Fintype ι] [Fintype κ] (L : ι → Prop) [DecidablePred L] (X : ι → κ → ℝ) (W : κ → ℝ) (d : ℝ) :
    ∑ k, ((∑ e, if L e then X e k else 0) * d) * W k = (∑ e, if L e then ∑ k, X e k * W k else 0) * d := by
  simp only [Finset.sum_mul]
  rw [Finset.sum_comm]
  refine Finset.sum_congr rfl fun e _ => ?_
  by_cases h : L e
  · simp only [if_pos h, Finset.sum_mul]
    refine Finset.sum_congr rfl fun k _ => by ring
  · simp [if_neg h]

/-- On the extended reals, for entries that are real numbers and a nonzero real divisor c: dividing the restricted sum
    of each column by c and then summing against W is the restricted sum of the rows' products with W, times 1 / c. -/
theorem ereal_law {ι κ : Type} [Fintype ι] [Fintype κ] (L : ι → Prop) [DecidablePred L] (X : ι → κ → EReal) (W : κ → EReal)
    (hX : ∀ e k, ∃ r : ℝ, X e k = (r : EReal)) (hW : ∀ k, ∃ r : ℝ, W k = (r : EReal)) (c : ℝ) (hc : c ≠ 0) :
    ∑ k, Ideal.div (∑ e, if L e then X e k else 0) (c : EReal) * W k
      = (∑ e, if L e then ∑ k, X e k * W k else 0) * Ideal.div 1 (c : EReal) := by
  choose X' hX' using hX
  choose W' hW' using hW
  have hite : ∀ (p : Prop) [Decidable p] (a : ℝ), (if p then (a : EReal) else 0) = ((if p then a else 0 : ℝ) : EReal) := by
    intro p _ a; split <;> simp
  simp only [Ideal.div_coe hc, one_mul, hX', hW', hite, ← EReal.coe_mul, ← coe_sum]
  exact congrArg _ (real_law L X' W' (1 / c))

/-! ## Two words -/

/-- The word 0x3F800000 denotes 1. -/
theorem one_word : Ideal.ofBits .f32 0x3F800000#32 = 1 := by
  simp [Ideal.ofBits, Ideal.ieee]
  rw [← EReal.coe_mul]
  norm_num

/-- The word 0x2B8CBCCC (ε) denotes a positive real. -/
theorem eps_word : ∃ r : ℝ, 0 < r ∧ Ideal.ofBits .f32 0x2B8CBCCC#32 = (r : EReal) := by
  refine ⟨9223372 * (2 ^ 63)⁻¹, by positivity, ?_⟩
  simp [Ideal.ofBits, Ideal.ieee]

/-! ## Being a real number is kept by the arithmetic -/

/-- A sum of two reals is a real. -/
theorem real_add {x y : EReal} (hx : ∃ r : ℝ, x = (r : EReal)) (hy : ∃ r : ℝ, y = (r : EReal)) :
    ∃ r : ℝ, x + y = (r : EReal) := by
  obtain ⟨a, rfl⟩ := hx; obtain ⟨b, rfl⟩ := hy
  exact ⟨a + b, (EReal.coe_add a b).symm⟩

/-- A product of two reals is a real. -/
theorem real_mul {x y : EReal} (hx : ∃ r : ℝ, x = (r : EReal)) (hy : ∃ r : ℝ, y = (r : EReal)) :
    ∃ r : ℝ, x * y = (r : EReal) := by
  obtain ⟨a, rfl⟩ := hx; obtain ⟨b, rfl⟩ := hy
  exact ⟨a * b, (EReal.coe_mul a b).symm⟩

/-- A finite sum of reals is a real. -/
theorem real_sum {ι : Type} (s : Finset ι) (f : ι → EReal) (hf : ∀ i, ∃ r : ℝ, f i = (r : EReal)) :
    ∃ r : ℝ, ∑ i ∈ s, f i = (r : EReal) := by
  choose f' hf' using hf
  exact ⟨∑ i ∈ s, f' i, by rw [coe_sum]; exact Finset.sum_congr rfl fun i _ => hf' i⟩

/-- A real or zero, by cases, is a real. -/
theorem real_ite (p : Prop) [Decidable p] {x : EReal} (hx : ∃ r : ℝ, x = (r : EReal)) :
    ∃ r : ℝ, (if p then x else 0) = (r : EReal) := by
  split
  · exact hx
  · exact ⟨0, EReal.coe_zero.symm⟩

/-- The larger of two reals is a real. -/
theorem real_max {x y : EReal} (hx : ∃ r : ℝ, x = (r : EReal)) (hy : ∃ r : ℝ, y = (r : EReal)) :
    ∃ r : ℝ, max x y = (r : EReal) := by
  obtain ⟨a, rfl⟩ := hx; obtain ⟨b, rfl⟩ := hy
  exact ⟨max a b, (coe_max a b).symm⟩

/-- A real divided by a nonzero real is a real. -/
theorem real_div {x : EReal} (hx : ∃ r : ℝ, x = (r : EReal)) {c : ℝ} (hc : c ≠ 0) :
    ∃ r : ℝ, Ideal.div x (c : EReal) = (r : EReal) := by
  obtain ⟨a, rfl⟩ := hx
  exact ⟨a * (1 / c), by rw [Ideal.div_coe hc, EReal.coe_mul]⟩

/-- The square root of a nonnegative real is a nonnegative real. -/
theorem real_sqrt {r : ℝ} (hr : 0 ≤ r) : Ideal.sqrt (r : EReal) = ((Real.sqrt r : ℝ) : EReal) := by
  rw [Ideal.sqrt_coe, if_neg (not_lt.mpr hr)]

end Cert.Net

end
-- ==== Proof.Attention.lean ====
/-
  Scaled dot-product attention of one query row, on the extended reals.

  For one batch b and one query row r, write s(c) for the scaled score against key row c and v(c) for one column of the
  value rows. Two arrangements of the same number are compared:

    the first   ( Σ_c e^{s(c) − M} · v(c) ) · ( 1 / Σ_c e^{s(c) − M} ),                 M = max_c s(c);
    the second    Σ_c ( e^{s(c) − M} / Σ_{c'} e^{s(c') − M} ) · v(c).

  On the extended reals a factor cannot be moved across a sum in general (it fails at ±∞). When every score and every
  value is a real number, M is a real number (the row is not empty), every exponential is a positive real, their sum L is a
  positive real, and both arrangements are the real number (Σ_c e^{s(c) − M} v(c)) / L: the distributive law in ℝ.

  The scores themselves also come in two arrangements, Σ_d (q(d) · ⅛) · k(d) and (Σ_d q(d) · k(d)) / 8, equal for real
  entries because ⅛ is the reciprocal of 8 and the factor moves across the finite sum in ℝ.

  `G` is the first arrangement and `GR` the second, as functions of three [64, 1024, 64] arrays; `G_eq` says they agree
  on arrays of real numbers.
-/
import Idealize.ShloMosaic.PureOps.Ideal
import Idealize.ShloMosaic.PureOps.Ideal.Laws
import Idealize.ShloMosaic.Lib.ValueIdx
import proofs.«106338_j3435973837236_2_alg».proof.Proof.LibExtReals

noncomputable section

open scoped BigOperators

namespace Cert.Attn

open Idealize.ShloMosaic Idealize.ShloMosaic.ValueIdx

/-! ## Three words -/

/-- The word 0xFF800000 denotes −∞. -/
theorem neg_inf_word : Ideal.ofBits .f32 0xFF800000#32 = (⊥ : EReal) := by
  simp [Ideal.ofBits, Ideal.ieee]

/-- The word 0x3E000000 denotes ⅛. -/
theorem eighth_word : Ideal.ofBits .f32 0x3E000000#32 = ((1 / 8 : ℝ) : EReal) := by
  simp [Ideal.ofBits, Ideal.ieee]
  rw [← EReal.coe_mul, EReal.coe_eq_coe_iff]
  norm_num

/-- The word 0x41000000 denotes 8. -/
theorem eight_word : Ideal.ofBits .f32 0x41000000#32 = ((8 : ℝ) : EReal) := by
  simp [Ideal.ofBits, Ideal.ieee]
  rw [← EReal.coe_mul, EReal.coe_eq_coe_iff]
  norm_num

/-! ## One row -/

section Row

variable {κ : Type} [Fintype κ]

/-- The largest entry of a row, as the fold of max from −∞. -/
def rowMax (s : κ → EReal) : EReal := (Finset.univ : Finset κ).fold max ⊥ s

/-- The fold of max from −∞ over real entries is −∞ on the empty set and a real number otherwise. -/
theorem fold_max_real (s : κ → EReal) (hs : ∀ k, ∃ r : ℝ, s k = (r : EReal)) (t : Finset κ) :
    (t = ∅ ∧ t.fold max ⊥ s = ⊥) ∨ ∃ r : ℝ, t.fold max ⊥ s = (r : EReal) := by
  classical
  induction t using Finset.induction_on with
  | empty => exact Or.inl ⟨rfl, Finset.fold_empty⟩
  | insert a t ha ih =>
    right
    rw [Finset.fold_insert ha]
    obtain ⟨x, hx⟩ := hs a
    rcases ih with ⟨-, h⟩ | ⟨r, h⟩
    · exact ⟨x, by rw [h, hx, max_eq_left bot_le]⟩
    · exact ⟨max x r, by rw [h, hx, Cert.Net.coe_max]⟩

/-- The largest entry of a non-empty row of real numbers is a real number. -/
theorem rowMax_real [Nonempty κ] (s : κ → EReal) (hs : ∀ k, ∃ r : ℝ, s k = (r : EReal)) :
    ∃ r : ℝ, rowMax s = (r : EReal) := by
  rcases fold_max_real s hs Finset.univ with ⟨h, -⟩ | h
  · exact absurd h Finset.univ_nonempty.ne_empty
  · exact h

/-- The first arrangement: the weighted sum of the values, scaled once by the reciprocal of the normaliser. -/
def attnK (s v : κ → EReal) : EReal :=
  (∑ k, Ideal.exp (s k - rowMax s) * v k) * Ideal.div 1 (∑ k, Ideal.exp (s k - rowMax s))

/-- The second arrangement: each weight divided by the normaliser (a sum started from 0) before it meets its value; the
    row maximum is taken once more against −∞, which changes nothing. -/
def attnR (s v : κ → EReal) : EReal :=
  ∑ k, Ideal.div (Ideal.exp (s k - max ⊥ (rowMax s))) (0 + ∑ j, Ideal.exp (s j - max ⊥ (rowMax s))) * v k

/-- For real scores and real values the two arrangements are one real number. -/
theorem attn_eq [Nonempty κ] (s v : κ → EReal) (hs : ∀ k, ∃ r : ℝ, s k = (r : EReal))
    (hv : ∀ k, ∃ r : ℝ, v k = (r : EReal)) : attnR s v = attnK s v := by
  obtain ⟨M, hM⟩ := rowMax_real s hs
  choose s' hs' using hs
  choose v' hv' using hv
  have hp : ∀ k, Ideal.exp (s k - (M : EReal)) = ((Real.exp (s' k - M) : ℝ) : EReal) := fun k => by
    rw [hs' k, ← EReal.coe_sub, Ideal.exp_coe]
  have hL : (0 : ℝ) < ∑ k, Real.exp (s' k - M) :=
    Finset.sum_pos (fun k _ => Real.exp_pos _) Finset.univ_nonempty
  unfold attnR attnK
  rw [hM, max_eq_right (bot_le : (⊥ : EReal) ≤ (M : EReal))]
  simp only [hp, hv', zero_add, ← Cert.Net.coe_sum, Ideal.div_coe hL.ne', one_mul, ← EReal.coe_mul]
  refine congrArg (fun x : ℝ => (x : EReal)) ?_
  rw [Finset.sum_mul]
  exact Finset.sum_congr rfl fun k _ => by ring

end Row

/-! ## One score -/

section Score

variable {δ : Type} [Fintype δ]

/-- The first arrangement of a score: each query entry scaled by ⅛ before the product with the key entry. -/
def scoreK (q k : δ → EReal) : EReal := ∑ d, (q d * Ideal.ofBits .f32 0x3E000000#32) * k d

/-- The second arrangement: the plain inner product divided by 8. -/
def scoreR (q k : δ → EReal) : EReal := Ideal.div (∑ d, q d * k d) (Ideal.ofBits .f32 0x41000000#32)

/-- For real entries the two arrangements agree, and the score is a real number. -/
theorem score_eq (q k : δ → EReal) (hq : ∀ d, ∃ r : ℝ, q d = (r : EReal)) (hk : ∀ d, ∃ r : ℝ, k d = (r : EReal)) :
    scoreR q k = scoreK q k ∧ ∃ r : ℝ, scoreK q k = (r : EReal) := by
  choose q' hq' using hq
  choose k' hk' using hk
  have e : scoreK q k = ((∑ d, q' d * (1 / 8) * k' d : ℝ) : EReal) := by
    unfold scoreK
    simp only [hq', hk', eighth_word, ← EReal.coe_mul, ← Cert.Net.coe_sum]
  refine ⟨?_, _, e⟩
  rw [e]
  unfold scoreR
  simp only [hq', hk', eight_word, Ideal.div_coe (by norm_num : (8 : ℝ) ≠ 0), ← EReal.coe_mul, ← Cert.Net.coe_sum]
  refine congrArg (fun x : ℝ => (x : EReal)) ?_
  rw [Finset.sum_mul]
  exact Finset.sum_congr rfl fun d _ => by ring

end Score

/-! ## The whole array -/

/-- The three arguments and the result: 64 batches of 1024 rows of 64 entries. -/
abbrev SA : Shape := ⟨3, ![64, 1024, 64]⟩

/-- Entry (b, r, d) of the result in the first arrangement: row r of batch b scored against every key row of the batch,
    weighted over column d of the batch's value rows. -/
def Gc (q k v : SA.Idx → EReal) (b : Fin 64) (r : Fin 1024) (d : Fin 64) : EReal :=
  attnK (fun c : Fin 1024 => scoreK (fun e : Fin 64 => q (ix3 b r e)) (fun e : Fin 64 => k (ix3 b c e)))
    (fun c : Fin 1024 => v (ix3 b c d))

/-- The same entry in the second arrangement. -/
def GRc (q k v : SA.Idx → EReal) (b : Fin 64) (r : Fin 1024) (d : Fin 64) : EReal :=
  attnR (fun c : Fin 1024 => scoreR (fun e : Fin 64 => q (ix3 b r e)) (fun e : Fin 64 => k (ix3 b c e)))
    (fun c : Fin 1024 => v (ix3 b c d))

/-- The result array in the first arrangement. -/
def G (q k v : SA.Idx → EReal) : SA.Idx → EReal := fun i => Gc q k v (i 0) (i 1) (i 2)

/-- The result array in the second arrangement. -/
def GR (q k v : SA.Idx → EReal) : SA.Idx → EReal := fun i => GRc q k v (i 0) (i 1) (i 2)

/-- On arrays of real numbers the two arrangements are one array. -/
theorem G_eq (q k v : SA.Idx → EReal) (hq : ∀ i, ∃ r : ℝ, q i = (r : EReal)) (hk : ∀ i, ∃ r : ℝ, k i = (r : EReal))
    (hv : ∀ i, ∃ r : ℝ, v i = (r : EReal)) : GR q k v = G q k v := by
  funext i
  show GRc q k v (i 0) (i 1) (i 2) = Gc q k v (i 0) (i 1) (i 2)
  generalize (i 0 : Fin 64) = b
  generalize (i 1 : Fin 1024) = r
  generalize (i 2 : Fin 64) = d
  unfold GRc Gc
  have hs : ∀ c : Fin 1024, scoreR (fun e : Fin 64 => q (ix3 b r e)) (fun e : Fin 64 => k (ix3 b c e))
      = scoreK (fun e : Fin 64 => q (ix3 b r e)) (fun e : Fin 64 => k (ix3 b c e))
      ∧ ∃ x : ℝ, scoreK (fun e : Fin 64 => q (ix3 b r e)) (fun e : Fin 64 => k (ix3 b c e)) = (x : EReal) :=
    fun c => score_eq _ _ (fun e => hq _) (fun e => hk _)
  rw [show (fun c : Fin 1024 => scoreR (fun e : Fin 64 => q (ix3 b r e)) (fun e : Fin 64 => k (ix3 b c e)))
      = fun c : Fin 1024 => scoreK (fun e : Fin 64 => q (ix3 b r e)) (fun e : Fin 64 => k (ix3 b c e)) from
    funext fun c => (hs c).1]
  exact attn_eq _ _ (fun c => (hs c).2) (fun c => hv _)

end Cert.Attn

end
-- ==== Proof.LibLastAxis.lean ====
/-
  Reductions along the LAST axis of a rank-3 array, and the keepdims forms around them, read at an index — generic in
  the three extents.

  For an [A, B, C] array x:
  * a lane reduction by maximum from the word of −∞ is, at (a, b), the fold of max over the C entries x(a, b, ·)
    (`multiReduction_max_last`), and a lane reduction by addition from the zero word is their sum
    (`multiReduction_add_last`);
  * the host's one-operand reduce along axis 2 with a commutative associative body is, at (a, b), the fold of the body
    from the initial value over those entries (`hostReduce_last`);
  * an [A, B] array cast to [A, B, 1] reads at (a, b, u) the operand at (a, b) (`shapeCast_ab_ab1_apply`);
  * an [A, B, 1] array broadcast to [A, B, D] reads at (a, b, d) the operand at (a, b, 0) (`broadcastTo_ab1_abd_apply`).

  Nothing here depends on a program.
-/
import Idealize.ShloMosaic.PureOps.Ideal
import Idealize.ShloMosaic.PureOps.Ideal.Laws
import Idealize.ShloMosaic.PureOps.Reduce
import Idealize.ShloMosaic.Lib.Pipeline.Value
import Idealize.ShloMosaic.Lib.ValueIdx

noncomputable section

open scoped BigOperators

namespace Cert.Lib.LastAxis

open Idealize.ShloMosaic Idealize.ShloMosaic.ValueIdx

variable {A B C : Nat}

/-- The index over (a, b) with c inserted on the last axis is (a, b, c). -/
theorem lift_last (h : (⟨3, ![A, B, C]⟩ : Shape).Reduces [2] ⟨2, ![A, B]⟩) (a : Fin A) (b : Fin B) (c : Fin C) :
    h.lift (ix2 a b) c = ix3 a b c :=
  funext fun ax => Fin.ext (by match ax with | ⟨0, _⟩ => rfl | ⟨1, _⟩ => rfl | ⟨2, _⟩ => rfl)

/-- A lane reduction by maximum along the last axis, from the word of −∞: at (a, b) the fold of max over the entries
    x(a, b, ·), started from what that word denotes. -/
theorem multiReduction_max_last (x : FVec Ideal ⟨3, ![A, B, C]⟩ .f32)
    (h : (⟨3, ![A, B, C]⟩ : Shape).Reduces [2] ⟨2, ![A, B]⟩) (hφ : FKind.Formats .f32)
    (hacc : (0xFF800000#32 : BitVec 32) = FKind.maximumf.neutral .f32 hφ) (a : Fin A) (b : Fin B) :
    multiReduction .maximumf [2] ⟨2, ![A, B]⟩ x 0xFF800000#32 h hφ hacc (ix2 a b)
      = (Finset.univ : Finset (Fin C)).fold max (Ideal.ofBits .f32 0xFF800000#32) (fun c => x (ix3 a b c)) := by
  refine (Ideal.multiReduction_maximumf_single x 0xFF800000#32 h hφ hacc (ix2 a b)).trans ?_
  refine congrArg (fun g => (Finset.univ : Finset (Fin C)).fold max (Ideal.ofBits .f32 0xFF800000#32) g) (funext fun c => ?_)
  exact congrArg x (lift_last h a b c)

/-- A lane reduction by addition along the last axis, from the zero word: at (a, b) the sum of the entries x(a, b, ·). -/
theorem multiReduction_add_last (x : FVec Ideal ⟨3, ![A, B, C]⟩ .f32)
    (h : (⟨3, ![A, B, C]⟩ : Shape).Reduces [2] ⟨2, ![A, B]⟩) (hφ : FKind.Formats .f32)
    (hacc : (0x00000000#32 : BitVec 32) = FKind.add.neutral .f32 hφ) (a : Fin A) (b : Fin B) :
    multiReduction .add [2] ⟨2, ![A, B]⟩ x 0x00000000#32 h hφ hacc (ix2 a b) = ∑ c : Fin C, x (ix3 a b c) := by
  refine (Ideal.multiReduction_add_single x 0x00000000#32 h hφ hacc (ix2 a b)).trans ?_
  exact Finset.sum_congr rfl fun c _ => congrArg x (lift_last h a b c)

/-- The host's one-operand reduce along the last axis with a commutative associative body: at (a, b) the fold of the body
    from the initial value over the entries x(a, b, ·). -/
theorem hostReduce_last (f : EReal → EReal → EReal) [Std.Commutative f] [Std.Associative f]
    (h' : (⟨3, ![A, B, C]⟩ : Shape).ReducesTo [2] ⟨2, ![A, B]⟩) (h : (⟨3, ![A, B, C]⟩ : Shape).Reduces [2] ⟨2, ![A, B]⟩)
    (x : (⟨3, ![A, B, C]⟩ : Shape).Idx → EReal) (init : (⟨0, ![]⟩ : Shape).Idx → EReal)
    (hu : 0 < (⟨0, ![]⟩ : Shape).numel) (a : Fin A) (b : Fin B) :
    Host.reduce f x init h' hu (ix2 a b)
      = (Finset.univ : Finset (Fin C)).fold f (init (Shape.Idx.first hu)) (fun c => x (ix3 a b c)) := by
  rw [Host.reduce_eq_fold_single f x init h' h hu (ix2 a b)]
  refine congrArg (fun g => (Finset.univ : Finset (Fin C)).fold f (init (Shape.Idx.first hu)) g) (funext fun c => ?_)
  exact congrArg x (lift_last h a b c)

variable {α : Type}

/-- An [A, B] array cast to [A, B, 1] reads, at (a, b, u), the operand at (a, b): the two indices have one row-major
    position. -/
theorem shapeCast_ab_ab1_apply (x : (⟨2, ![A, B]⟩ : Shape).Idx → α)
    (h : (⟨2, ![A, B]⟩ : Shape).ShapeCasts ⟨3, ![A, B, 1]⟩) (a : Fin A) (b : Fin B) (u : Fin 1) :
    shapeCast ⟨3, ![A, B, 1]⟩ x h (ix3 a b u) = x (ix2 a b) :=
  shapeCast_apply x h _ _ (by
    have hu : u.val = 0 := by omega
    rw [Shape.rowMajor_val_two, Shape.rowMajor_val_three]
    show a.val * B + b.val = (a.val * B + b.val) * 1 + u.val
    omega)

/-- An [A, B, 1] array broadcast to [A, B, D] reads, at (a, b, d), the operand at (a, b, 0). -/
theorem broadcastTo_ab1_abd_apply {D : Nat} (v : (⟨3, ![A, B, 1]⟩ : Shape).Idx → α)
    (h : (⟨3, ![A, B, 1]⟩ : Shape).Broadcasts ⟨3, ![A, B, D]⟩) (a : Fin A) (b : Fin B) (d : Fin D) :
    broadcastTo ⟨3, ![A, B, D]⟩ v h (ix3 a b d) = v (ix3 a b (0 : Fin 1)) := by
  refine broadcastTo_apply v h (ix3 a b d) (ix3 a b (0 : Fin 1)) fun ax => ?_
  match ax with
  | ⟨0, _⟩ =>
    show a.val = if A = 1 then 0 else a.val
    split
    · have := a.isLt; omega
    · rfl
  | ⟨1, _⟩ =>
    show b.val = if B = 1 then 0 else b.val
    split
    · have := b.isLt; omega
    · rfl
  | ⟨2, _⟩ => rfl

end Cert.Lib.LastAxis

end
-- ==== Proof.LibContract.lean ====
/-
  A contraction over ONE axis, read as a sum over that axis's coordinate.

  At the ideal values a matrix product, whatever its dimension numbers, is at each output index j the sum over the
  contraction index set of  l (lhsIdx j q) * r (rhsIdx j q).  When exactly one axis of each operand is contracted,
  of extent K, the contraction index is one coordinate k : Fin K, and the sum is over k of the operands at the two
  indices that q = k gives. `single_sum` states this for any dimension numbers; the operand indices at each k are
  supplied by the caller (they are read off the dimension numbers coordinate by coordinate).
  `matmul_zero_single` and `dotGeneral_single` are the same for a product into the zero accumulator and for the
  host's product.
-/
import Idealize.ShloMosaic.Lib.ValueIdx
import Idealize.ShloMosaic.PureOps.Ideal.Laws

noncomputable section

open scoped BigOperators

namespace Cert.Lib.Contract

open Idealize.ShloMosaic Idealize.ShloMosaic.ValueIdx

variable {sl sr so : Shape}

/-- The contraction sum over one contracted axis of extent K, re-indexed through the axis's coordinate. -/
theorem single_sum (d : DotDims sl sr so) (K : ℕ) (hr : d.contr.rank = 1) (hs : d.contr.size ⟨0, by omega⟩ = K)
    (l : sl.Idx → EReal) (r : sr.Idx → EReal) (j : so.Idx) (Li : Fin K → sl.Idx) (Ri : Fin K → sr.Idx)
    (hl : ∀ (k : Fin K) (q : d.contr.Idx), (q ⟨0, by omega⟩).val = k.val → d.lhsIdx j q = Li k)
    (hrr : ∀ (k : Fin K) (q : d.contr.Idx), (q ⟨0, by omega⟩).val = k.val → d.rhsIdx j q = Ri k) :
    ∑ q : d.contr.Idx, l (d.lhsIdx j q) * r (d.rhsIdx j q) = ∑ k : Fin K, l (Li k) * r (Ri k) := by
  rw [← Equiv.sum_comp (contrEquiv1 d K hr hs).symm]
  refine Finset.sum_congr rfl fun k _ => ?_
  have hk := contrEquiv1_symm_val d K hr hs k
  rw [hl k _ hk, hrr k _ hk]

/-- A kernel's matrix product into the zero accumulator, one axis contracted, read at an output index. -/
theorem matmul_zero_single {φ₁ φ₂ : FTy} (d : DotDims sl sr so) (prec : Option ContractPrecision) (K : ℕ)
    (hr : d.contr.rank = 1) (hs : d.contr.size ⟨0, by omega⟩ = K)
    (l : FVec Ideal sl φ₁) (r : FVec Ideal sr φ₂) (j : so.Idx) (Li : Fin K → sl.Idx) (Ri : Fin K → sr.Idx)
    (hl : ∀ (k : Fin K) (q : d.contr.Idx), (q ⟨0, by omega⟩).val = k.val → d.lhsIdx j q = Li k)
    (hrr : ∀ (k : Fin K) (q : d.contr.Idx), (q ⟨0, by omega⟩).val = k.val → d.rhsIdx j q = Ri k) :
    matmul d prec l r (constant so .f32 0x00000000#32) j = ∑ k : Fin K, l (Li k) * r (Ri k) :=
  (Ideal.matmul_constant_zero_apply d prec l r j).trans (single_sum d K hr hs l r j Li Ri hl hrr)

/-- The host's matrix product, one axis contracted, read at an output index. -/
theorem dotGeneral_single {φ₁ φ₂ : FTy} (d : DotDims sl sr so) (prec : Option ContractPrecision) (K : ℕ)
    (hr : d.contr.rank = 1) (hs : d.contr.size ⟨0, by omega⟩ = K)
    (l : FVec Ideal sl φ₁) (r : FVec Ideal sr φ₂) (j : so.Idx) (Li : Fin K → sl.Idx) (Ri : Fin K → sr.Idx)
    (hl : ∀ (k : Fin K) (q : d.contr.Idx), (q ⟨0, by omega⟩).val = k.val → d.lhsIdx j q = Li k)
    (hrr : ∀ (k : Fin K) (q : d.contr.Idx), (q ⟨0, by omega⟩).val = k.val → d.rhsIdx j q = Ri k) :
    Host.dotGeneral d prec l r j = ∑ k : Fin K, l (Li k) * r (Ri k) :=
  (Ideal.dotGeneral_apply d prec .single l r j).trans (single_sum d K hr hs l r j Li Ri hl hrr)

end Cert.Lib.Contract

end
-- ==== Proof.KernelBody.lean ====
/-
  The kernel body's one stored value, read at an index.

  The body loads a block of two batches of the three arguments, x0 = q, x1 = k, x2 = v, each [2, 1024, 64], and stores

      ( P · x2 ) * broadcast( 1 / rowsum(P) ),      P = exp( S − broadcast(rowmax(S)) ),      S = (x0 · ⅛) · x1ᵀ,

  where the two products are batched over the first axis: S(b, r, c) = Σ_e (x0(b, r, e) · ⅛) · x1(b, c, e) and
  (P · x2)(b, r, d) = Σ_c P(b, r, c) · x2(b, c, d); the row maximum and the row sum run along the last axis of S and P
  and are kept as [2, 1024, 1] columns, then spread back along that axis. The changes of float format on the way into the
  two products are the identity on the extended reals.

  Read at (b, r, d) this is the first arrangement of the attention of row r of batch b (Attention.lean's `attnK` over
  `scoreK`): `pay_apply`.
-/
import proofs.«106338_j3435973837236_2_alg».proof.Proof.Gen.KernelIdeal.Skeleton
import proofs.«106338_j3435973837236_2_alg».proof.Proof.Attention
import proofs.«106338_j3435973837236_2_alg».proof.Proof.LibLastAxis
import proofs.«106338_j3435973837236_2_alg».proof.Proof.LibContract
import Idealize.ShloMosaic.Lib.Pipeline.Value
import Idealize.ShloMosaic.Lib.ValueIdx
import Idealize.ShloMosaic.PureOps.Ideal.Laws

noncomputable section

open scoped BigOperators

namespace Cert.KernelIdeal.Body

open Cert.KernelIdeal Cert.KernelIdeal.Gen Idealize.ShloMosaic Idealize.ShloMosaic.ValueIdx Cert.Attn Cert.Lib.LastAxis

/-! ## The two batched products' operand indices

Coordinate by coordinate, as the dimension numbers say: a batch axis and a free axis of an operand take the output
index's coordinate, the contracted axis takes the contraction coordinate. -/

theorem qk_lhs_0 (j : S2x1024x1024.Idx) (q : dot_S2x1024x64_S2x1024x64_S2x1024x1024_2_2_1_1_0_0.contr.Idx) :
    (dot_S2x1024x64_S2x1024x64_S2x1024x1024_2_2_1_1_0_0.lhsIdx j q 0).val = (j 0).val := by
  unfold DotDims.lhsIdx
  rw [dif_pos (show (0 : Fin S2x1024x64.rank) ∈ dot_S2x1024x64_S2x1024x64_S2x1024x1024_2_2_1_1_0_0.lhsBatch by decide)]
  rfl

theorem qk_lhs_1 (j : S2x1024x1024.Idx) (q : dot_S2x1024x64_S2x1024x64_S2x1024x1024_2_2_1_1_0_0.contr.Idx) :
    (dot_S2x1024x64_S2x1024x64_S2x1024x1024_2_2_1_1_0_0.lhsIdx j q 1).val = (j 1).val := by
  unfold DotDims.lhsIdx
  rw [dif_neg (show ¬(1 : Fin S2x1024x64.rank) ∈ dot_S2x1024x64_S2x1024x64_S2x1024x1024_2_2_1_1_0_0.lhsBatch by decide), dif_pos (show (1 : Fin S2x1024x64.rank) ∈ dot_S2x1024x64_S2x1024x64_S2x1024x1024_2_2_1_1_0_0.lhsNonContracting by decide)]
  rfl

theorem qk_lhs_2 (j : S2x1024x1024.Idx) (q : dot_S2x1024x64_S2x1024x64_S2x1024x1024_2_2_1_1_0_0.contr.Idx) :
    (dot_S2x1024x64_S2x1024x64_S2x1024x1024_2_2_1_1_0_0.lhsIdx j q 2).val = (q ⟨0, by decide⟩).val :=
  dot_S2x1024x64_S2x1024x64_S2x1024x1024_2_2_1_1_0_0.lhsIdx_val_of_single rfl j q

theorem qk_rhs_0 (j : S2x1024x1024.Idx) (q : dot_S2x1024x64_S2x1024x64_S2x1024x1024_2_2_1_1_0_0.contr.Idx) :
    (dot_S2x1024x64_S2x1024x64_S2x1024x1024_2_2_1_1_0_0.rhsIdx j q 0).val = (j 0).val := by
  unfold DotDims.rhsIdx
  rw [dif_pos (show (0 : Fin S2x1024x64.rank) ∈ dot_S2x1024x64_S2x1024x64_S2x1024x1024_2_2_1_1_0_0.rhsBatch by decide)]
  rfl

theorem qk_rhs_1 (j : S2x1024x1024.Idx) (q : dot_S2x1024x64_S2x1024x64_S2x1024x1024_2_2_1_1_0_0.contr.Idx) :
    (dot_S2x1024x64_S2x1024x64_S2x1024x1024_2_2_1_1_0_0.rhsIdx j q 1).val = (j 2).val := by
  unfold DotDims.rhsIdx
  rw [dif_neg (show ¬(1 : Fin S2x1024x64.rank) ∈ dot_S2x1024x64_S2x1024x64_S2x1024x1024_2_2_1_1_0_0.rhsBatch by decide), dif_pos (show (1 : Fin S2x1024x64.rank) ∈ dot_S2x1024x64_S2x1024x64_S2x1024x1024_2_2_1_1_0_0.rhsNonContracting by decide)]
  rfl

theorem qk_rhs_2 (j : S2x1024x1024.Idx) (q : dot_S2x1024x64_S2x1024x64_S2x1024x1024_2_2_1_1_0_0.contr.Idx) :
    (dot_S2x1024x64_S2x1024x64_S2x1024x1024_2_2_1_1_0_0.rhsIdx j q 2).val = (q ⟨0, by decide⟩).val :=
  dot_S2x1024x64_S2x1024x64_S2x1024x1024_2_2_1_1_0_0.rhsIdx_val_of_single rfl j q

theorem pv_lhs_0 (j : S2x1024x64.Idx) (q : dot_S2x1024x1024_S2x1024x64_S2x1024x64_2_1_1_2_0_0.contr.Idx) :
    (dot_S2x1024x1024_S2x1024x64_S2x1024x64_2_1_1_2_0_0.lhsIdx j q 0).val = (j 0).val := by
  unfold DotDims.lhsIdx
  rw [dif_pos (show (0 : Fin S2x1024x1024.rank) ∈ dot_S2x1024x1024_S2x1024x64_S2x1024x64_2_1_1_2_0_0.lhsBatch by decide)]
  rfl

theorem pv_lhs_1 (j : S2x1024x64.Idx) (q : dot_S2x1024x1024_S2x1024x64_S2x1024x64_2_1_1_2_0_0.contr.Idx) :
    (dot_S2x1024x1024_S2x1024x64_S2x1024x64_2_1_1_2_0_0.lhsIdx j q 1).val = (j 1).val := by
  unfold DotDims.lhsIdx
  rw [dif_neg (show ¬(1 : Fin S2x1024x1024.rank) ∈ dot_S2x1024x1024_S2x1024x64_S2x1024x64_2_1_1_2_0_0.lhsBatch by decide), dif_pos (show (1 : Fin S2x1024x1024.rank) ∈ dot_S2x1024x1024_S2x1024x64_S2x1024x64_2_1_1_2_0_0.lhsNonContracting by decide)]
  rfl

theorem pv_lhs_2 (j : S2x1024x64.Idx) (q : dot_S2x1024x1024_S2x1024x64_S2x1024x64_2_1_1_2_0_0.contr.Idx) :
    (dot_S2x1024x1024_S2x1024x64_S2x1024x64_2_1_1_2_0_0.lhsIdx j q 2).val = (q ⟨0, by decide⟩).val :=
  dot_S2x1024x1024_S2x1024x64_S2x1024x64_2_1_1_2_0_0.lhsIdx_val_of_single rfl j q

theorem pv_rhs_0 (j : S2x1024x64.Idx) (q : dot_S2x1024x1024_S2x1024x64_S2x1024x64_2_1_1_2_0_0.contr.Idx) :
    (dot_S2x1024x1024_S2x1024x64_S2x1024x64_2_1_1_2_0_0.rhsIdx j q 0).val = (j 0).val := by
  unfold DotDims.rhsIdx
  rw [dif_pos (show (0 : Fin S2x1024x64.rank) ∈ dot_S2x1024x1024_S2x1024x64_S2x1024x64_2_1_1_2_0_0.rhsBatch by decide)]
  rfl

theorem pv_rhs_1 (j : S2x1024x64.Idx) (q : dot_S2x1024x1024_S2x1024x64_S2x1024x64_2_1_1_2_0_0.contr.Idx) :
    (dot_S2x1024x1024_S2x1024x64_S2x1024x64_2_1_1_2_0_0.rhsIdx j q 1).val = (q ⟨0, by decide⟩).val :=
  dot_S2x1024x1024_S2x1024x64_S2x1024x64_2_1_1_2_0_0.rhsIdx_val_of_single rfl j q

theorem pv_rhs_2 (j : S2x1024x64.Idx) (q : dot_S2x1024x1024_S2x1024x64_S2x1024x64_2_1_1_2_0_0.contr.Idx) :
    (dot_S2x1024x1024_S2x1024x64_S2x1024x64_2_1_1_2_0_0.rhsIdx j q 2).val = (j 2).val := by
  unfold DotDims.rhsIdx
  rw [dif_neg (show ¬(2 : Fin S2x1024x64.rank) ∈ dot_S2x1024x1024_S2x1024x64_S2x1024x64_2_1_1_2_0_0.rhsBatch by decide), dif_pos (show (2 : Fin S2x1024x64.rank) ∈ dot_S2x1024x1024_S2x1024x64_S2x1024x64_2_1_1_2_0_0.rhsNonContracting by decide)]
  rfl

/-- Scores: the left operand of output (b, r, c) at contraction coordinate e is (b, r, e). -/
theorem qk_lhs (b : Fin 2) (r c : Fin 1024) (e : Fin 64) (q : dot_S2x1024x64_S2x1024x64_S2x1024x1024_2_2_1_1_0_0.contr.Idx)
    (hq : (q ⟨0, by decide⟩).val = e.val) : dot_S2x1024x64_S2x1024x64_S2x1024x1024_2_2_1_1_0_0.lhsIdx (ix3 b r c) q = ix3 b r e :=
  funext fun a => Fin.ext (by
    match a with
    | ⟨0, _⟩ => exact qk_lhs_0 _ _
    | ⟨1, _⟩ => exact qk_lhs_1 _ _
    | ⟨2, _⟩ => exact (qk_lhs_2 _ _).trans hq)

/-- Scores: the right operand of output (b, r, c) at contraction coordinate e is (b, c, e). -/
theorem qk_rhs (b : Fin 2) (r c : Fin 1024) (e : Fin 64) (q : dot_S2x1024x64_S2x1024x64_S2x1024x1024_2_2_1_1_0_0.contr.Idx)
    (hq : (q ⟨0, by decide⟩).val = e.val) : dot_S2x1024x64_S2x1024x64_S2x1024x1024_2_2_1_1_0_0.rhsIdx (ix3 b r c) q = ix3 b c e :=
  funext fun a => Fin.ext (by
    match a with
    | ⟨0, _⟩ => exact qk_rhs_0 _ _
    | ⟨1, _⟩ => exact qk_rhs_1 _ _
    | ⟨2, _⟩ => exact (qk_rhs_2 _ _).trans hq)

/-- Weighted values: the left operand of output (b, r, d) at contraction coordinate c is (b, r, c). -/
theorem pv_lhs (b : Fin 2) (r : Fin 1024) (d : Fin 64) (c : Fin 1024) (q : dot_S2x1024x1024_S2x1024x64_S2x1024x64_2_1_1_2_0_0.contr.Idx)
    (hq : (q ⟨0, by decide⟩).val = c.val) : dot_S2x1024x1024_S2x1024x64_S2x1024x64_2_1_1_2_0_0.lhsIdx (ix3 b r d) q = ix3 b r c :=
  funext fun a => Fin.ext (by
    match a with
    | ⟨0, _⟩ => exact pv_lhs_0 _ _
    | ⟨1, _⟩ => exact pv_lhs_1 _ _
    | ⟨2, _⟩ => exact (pv_lhs_2 _ _).trans hq)

/-- Weighted values: the right operand of output (b, r, d) at contraction coordinate c is (b, c, d). -/
theorem pv_rhs (b : Fin 2) (r : Fin 1024) (d : Fin 64) (c : Fin 1024) (q : dot_S2x1024x1024_S2x1024x64_S2x1024x64_2_1_1_2_0_0.contr.Idx)
    (hq : (q ⟨0, by decide⟩).val = c.val) : dot_S2x1024x1024_S2x1024x64_S2x1024x64_2_1_1_2_0_0.rhsIdx (ix3 b r d) q = ix3 b c d :=
  funext fun a => Fin.ext (by
    match a with
    | ⟨0, _⟩ => exact pv_rhs_0 _ _
    | ⟨1, _⟩ => exact (pv_rhs_1 _ _).trans hq
    | ⟨2, _⟩ => exact pv_rhs_2 _ _)

/-! ## The stages of the body -/

/-- The score block S = (x0 · ⅛) · x1ᵀ, batched. -/
def scores (x0 x1 : Vec Ideal S2x1024x64 .f32) : FVec Ideal S2x1024x1024 .f32 :=
  matmul dot_S2x1024x64_S2x1024x64_S2x1024x1024_2_2_1_1_0_0 none
    (truncf .bf16 (mulf x0 (broadcast S2x1024x64 (Scalar.ofBits .f32 0x3E000000#32))) bitsLt_bf16_f32)
    (truncf .bf16 x1 bitsLt_bf16_f32) (constant S2x1024x1024 .f32 0x00000000#32)

/-- The weights P = exp(S − rowmax S), the row maximum kept as a column and spread back. -/
def weights (s : FVec Ideal S2x1024x1024 .f32) : FVec Ideal S2x1024x1024 .f32 :=
  exp (subf s (broadcastTo S2x1024x1024
    (shapeCast S2x1024x1 (multiReduction .maximumf [2] S2x1024 s 0xFF800000#32 reduces_S2x1024x1024_S2x1024 (.inl rfl) rfl)
      shapeCasts_S2x1024_S2x1024x1) broadcasts_S2x1024x1_S2x1024x1024))

/-- The column 1 / rowsum P. -/
def recip (p : FVec Ideal S2x1024x1024 .f32) : FVec Ideal S2x1024x1 .f32 :=
  divf (broadcast S2x1024x1 (Scalar.ofBits .f32 0x3F800000#32))
    (shapeCast S2x1024x1 (multiReduction .add [2] S2x1024 p 0x00000000#32 reduces_S2x1024x1024_S2x1024 (.inl rfl) rfl)
      shapeCasts_S2x1024_S2x1024x1)

/-- The stored value is these stages composed. -/
theorem pay_eq (x0 x1 x2 : Vec Ideal S2x1024x64 .f32) :
    k0_pay1 (F := Ideal) x0 x1 x2
      = mulf (matmul dot_S2x1024x1024_S2x1024x64_S2x1024x64_2_1_1_2_0_0 none (truncf .bf16 (weights (scores x0 x1)) bitsLt_bf16_f32)
            (truncf .bf16 x2 bitsLt_bf16_f32) (constant S2x1024x64 .f32 0x00000000#32))
          (broadcastTo S2x1024x64 (recip (weights (scores x0 x1))) broadcasts_S2x1024x1_S2x1024x64) := rfl

/-- A score at (b, r, c): the inner product of query row r, scaled by ⅛, with key row c of batch b. -/
theorem scores_apply (x0 x1 : Vec Ideal S2x1024x64 .f32) (b : Fin 2) (r c : Fin 1024) :
    scores x0 x1 (ix3 b r c) = scoreK (fun e : Fin 64 => x0 (ix3 b r e)) (fun e : Fin 64 => x1 (ix3 b c e)) := by
  unfold scores
  exact Cert.Lib.Contract.matmul_zero_single dot_S2x1024x64_S2x1024x64_S2x1024x1024_2_2_1_1_0_0 none 64 rfl rfl _ _ (ix3 b r c)
    (fun e => ix3 b r e) (fun e => ix3 b c e) (fun e q hq => qk_lhs b r c e q hq) (fun e q hq => qk_rhs b r c e q hq)

/-- A weight at (b, r, c): the exponential of the score less the largest score of its row. -/
theorem weights_apply (s : FVec Ideal S2x1024x1024 .f32) (b : Fin 2) (r c : Fin 1024) :
    weights s (ix3 b r c) = Ideal.exp (s (ix3 b r c) - rowMax (fun c' : Fin 1024 => s (ix3 b r c'))) := by
  unfold weights
  show Ideal.exp (s (ix3 b r c) - broadcastTo S2x1024x1024 _ broadcasts_S2x1024x1_S2x1024x1024 (ix3 b r c)) = _
  rw [broadcastTo_ab1_abd_apply _ broadcasts_S2x1024x1_S2x1024x1024 b r c,
    shapeCast_ab_ab1_apply _ shapeCasts_S2x1024_S2x1024x1 b r (0 : Fin 1),
    multiReduction_max_last s reduces_S2x1024x1024_S2x1024 (.inl rfl) rfl b r, neg_inf_word]
  rfl

/-- The reciprocal column at (b, r, ·): one over the sum of the row's weights. -/
theorem recip_apply (p : FVec Ideal S2x1024x1024 .f32) (b : Fin 2) (r : Fin 1024) (u : Fin 1) :
    recip p (ix3 b r u) = Ideal.div 1 (∑ c : Fin 1024, p (ix3 b r c)) := by
  unfold recip
  show Ideal.div (Ideal.ofBits .f32 0x3F800000#32) (shapeCast S2x1024x1 _ shapeCasts_S2x1024_S2x1024x1 (ix3 b r u)) = _
  rw [shapeCast_ab_ab1_apply _ shapeCasts_S2x1024_S2x1024x1 b r u,
    multiReduction_add_last p reduces_S2x1024x1024_S2x1024 (.inl rfl) rfl b r, Cert.Net.one_word]

/-- THE STORED VALUE AT (b, r, d): the attention of query row r of batch b of the block over column d of its value rows,
    in the first arrangement. -/
theorem pay_apply (x0 x1 x2 : Vec Ideal S2x1024x64 .f32) (b : Fin 2) (r : Fin 1024) (d : Fin 64) :
    k0_pay1 (F := Ideal) x0 x1 x2 (ix3 b r d)
      = attnK (fun c : Fin 1024 => scoreK (fun e : Fin 64 => x0 (ix3 b r e)) (fun e : Fin 64 => x1 (ix3 b c e)))
          (fun c : Fin 1024 => x2 (ix3 b c d)) := by
  rw [pay_eq]
  show matmul dot_S2x1024x1024_S2x1024x64_S2x1024x64_2_1_1_2_0_0 none (truncf .bf16 (weights (scores x0 x1)) bitsLt_bf16_f32)
        (truncf .bf16 x2 bitsLt_bf16_f32) (constant S2x1024x64 .f32 0x00000000#32) (ix3 b r d)
      * broadcastTo S2x1024x64 (recip (weights (scores x0 x1))) broadcasts_S2x1024x1_S2x1024x64 (ix3 b r d) = _
  rw [Cert.Lib.Contract.matmul_zero_single dot_S2x1024x1024_S2x1024x64_S2x1024x64_2_1_1_2_0_0 none 1024 rfl rfl _ _ (ix3 b r d)
      (fun c => ix3 b r c) (fun c => ix3 b c d) (fun c q hq => pv_lhs b r d c q hq) (fun c q hq => pv_rhs b r d c q hq),
    broadcastTo_ab1_abd_apply _ broadcasts_S2x1024x1_S2x1024x64 b r d, recip_apply]
  show (∑ c : Fin 1024, weights (scores x0 x1) (ix3 b r c) * x2 (ix3 b c d))
      * Ideal.div 1 (∑ c : Fin 1024, weights (scores x0 x1) (ix3 b r c)) = _
  simp only [weights_apply, scores_apply]
  rfl

end Cert.KernelIdeal.Body

end
-- ==== Proof.KernelValue.lean ====
/-
  From the blocks to the array: after the run the kernel's result array is the attention of every row, in the first
  arrangement.

  The grid has 32 points; at point t every window's block is batches 2t and 2t + 1, whole (block index (t, 0, 0) of a
  [2, 1024, 64] block in a [64, 1024, 64] array). So entry (b, r, e) of an input block at point t is entry
  (2t + b, r, e) of its argument, what the point writes back is the body's stored value of the three input blocks, which
  by the body's reading is block t of `G` of the three arguments, and the 32 blocks cover the result array: batch i
  belongs to point i / 2.
-/
import proofs.«106338_j3435973837236_2_alg».proof.Proof.Gen.KernelIdeal.Value
import proofs.«106338_j3435973837236_2_alg».proof.Proof.KernelBody
import proofs.«106338_j3435973837236_2_alg».proof.Proof.Attention
import Idealize.ShloMosaic.Lib.Pipeline.Value
import Idealize.ShloMosaic.Lib.ValueIdx

noncomputable section

namespace Cert.KernelIdeal.Hand

open Cert.KernelIdeal Cert.KernelIdeal.Gen Cert.KernelIdeal.Value Idealize.ShloMosaic Idealize.ShloMosaic.TcCoe Idealize.SL.Sem
open Idealize.ShloMosaic.ValueIdx Cert.Attn
open Idealize.ShloMosaic.Pipeline (Dat)

variable (m : (ℓ : Loc nD τ sig) → Buf (Elt Ideal) ℓ) (ρ : Dev nD → PrngReg)

theorem hz : (![0, 0, 0] : Fin 3 → Nat) = fun _ => 0 := funext fun a => by fin_cases a <;> rfl

/-- Every window's block index at point t is (t, 0, 0). -/
theorem idx_facts : ∀ t : Fin cfg0.N,
    (win0_0.index t (0 : Fin 3) = t.val ∧ win0_0.index t (1 : Fin 3) = 0 ∧ win0_0.index t (2 : Fin 3) = 0)
    ∧ (win0_1.index t (0 : Fin 3) = t.val ∧ win0_1.index t (1 : Fin 3) = 0 ∧ win0_1.index t (2 : Fin 3) = 0)
    ∧ (win0_2.index t (0 : Fin 3) = t.val ∧ win0_2.index t (1 : Fin 3) = 0 ∧ win0_2.index t (2 : Fin 3) = 0)
    ∧ (win0_3.index t (0 : Fin 3) = t.val ∧ win0_3.index t (1 : Fin 3) = 0 ∧ win0_3.index t (2 : Fin 3) = 0) :=
  (by decide +kernel : ∀ t : Fin grid0.N, _)

/-- The batch that row b of point t's block belongs to: 2t + b. -/
def bat (t : Fin cfg0.N) (b : Fin 2) : Fin 64 :=
  ⟨2 * t.val + b.val, by have := t.isLt; have hN : cfg0.N = 32 := N_0; have := b.isLt; omega⟩

/-- Entry (b, r, e) of the query block at point t is entry (2t + b, r, e) of the first argument. -/
theorem iblk0_apply (c : Dev nD) (t : Fin cfg0.N) (b : Fin 2) (r : Fin 1024) (e : Fin 64) :
    (iblk m c 0 t : Vec Ideal S2x1024x64 .f32) (ix3 b r e)
      = (m ((c : Thread nD τ).loc main_arg0) : S64x1024x64.Idx → EReal) (ix3 (bat t b) r e) := by
  obtain ⟨⟨h0, h1, h2⟩, -⟩ := idx_facts t
  unfold iblk
  rw [View.read_apply]
  show V m c main_arg0 _ = _
  refine congrArg (V m c main_arg0) (funext fun a => Fin.ext ?_)
  match a with
  | ⟨0, _⟩ => show win0_0.index t (0 : Fin 3) * 2 + 1 * b.val = 2 * t.val + b.val; rw [h0]; omega
  | ⟨1, _⟩ => show win0_0.index t (1 : Fin 3) * 1024 + 1 * r.val = r.val; rw [h1]; omega
  | ⟨2, _⟩ => show win0_0.index t (2 : Fin 3) * 64 + 1 * e.val = e.val; rw [h2]; omega

/-- Entry (b, r, e) of the key block at point t is entry (2t + b, r, e) of the second argument. -/
theorem iblk1_apply (c : Dev nD) (t : Fin cfg0.N) (b : Fin 2) (r : Fin 1024) (e : Fin 64) :
    (iblk m c 1 t : Vec Ideal S2x1024x64 .f32) (ix3 b r e)
      = (m ((c : Thread nD τ).loc main_arg1) : S64x1024x64.Idx → EReal) (ix3 (bat t b) r e) := by
  obtain ⟨-, ⟨h0, h1, h2⟩, -⟩ := idx_facts t
  unfold iblk
  rw [View.read_apply]
  show V m c main_arg1 _ = _
  refine congrArg (V m c main_arg1) (funext fun a => Fin.ext ?_)
  match a with
  | ⟨0, _⟩ => show win0_1.index t (0 : Fin 3) * 2 + 1 * b.val = 2 * t.val + b.val; rw [h0]; omega
  | ⟨1, _⟩ => show win0_1.index t (1 : Fin 3) * 1024 + 1 * r.val = r.val; rw [h1]; omega
  | ⟨2, _⟩ => show win0_1.index t (2 : Fin 3) * 64 + 1 * e.val = e.val; rw [h2]; omega

/-- Entry (b, r, e) of the value block at point t is entry (2t + b, r, e) of the third argument. -/
theorem iblk2_apply (c : Dev nD) (t : Fin cfg0.N) (b : Fin 2) (r : Fin 1024) (e : Fin 64) :
    (iblk m c 2 t : Vec Ideal S2x1024x64 .f32) (ix3 b r e)
      = (m ((c : Thread nD τ).loc main_arg2) : S64x1024x64.Idx → EReal) (ix3 (bat t b) r e) := by
  obtain ⟨-, -, ⟨h0, h1, h2⟩, -⟩ := idx_facts t
  unfold iblk
  rw [View.read_apply]
  show V m c main_arg2 _ = _
  refine congrArg (V m c main_arg2) (funext fun a => Fin.ext ?_)
  match a with
  | ⟨0, _⟩ => show win0_2.index t (0 : Fin 3) * 2 + 1 * b.val = 2 * t.val + b.val; rw [h0]; omega
  | ⟨1, _⟩ => show win0_2.index t (1 : Fin 3) * 1024 + 1 * r.val = r.val; rw [h1]; omega
  | ⟨2, _⟩ => show win0_2.index t (2 : Fin 3) * 64 + 1 * e.val = e.val; rw [h2]; omega

/-- Entry (b, r, d) of the result block at point t sits at (2t + b, r, d) of the result array. -/
theorem emb3 (t : Fin cfg0.N) (b : Fin 2) (r : Fin 1024) (d : Fin 64) :
    ((cfg0.win 3).blk t).view.emb (ix3 b r d) = (ix3 (bat t b) r d : S64x1024x64.Idx) := by
  obtain ⟨-, -, -, ⟨h0, h1, h2⟩⟩ := idx_facts t
  refine funext fun a => Fin.ext ?_
  match a with
  | ⟨0, _⟩ => show win0_3.index t (0 : Fin 3) * 2 + 1 * b.val = 2 * t.val + b.val; rw [h0]; omega
  | ⟨1, _⟩ => show win0_3.index t (1 : Fin 3) * 1024 + 1 * r.val = r.val; rw [h1]; omega
  | ⟨2, _⟩ => show win0_3.index t (2 : Fin 3) * 64 + 1 * d.val = d.val; rw [h2]; omega

/-- WHAT POINT t WRITES BACK is block t of the attention of the three arguments. -/
theorem flushed_eq (c : Dev nD) (t : Fin cfg0.N) :
    (dats m 0 c).flushed 3 t = ((cfg0.win 3).blk t).view.read (Elt Ideal)
      (G (m ((c : Thread nD τ).loc main_arg0)) (m ((c : Thread nD τ).loc main_arg1)) (m ((c : Thread nD τ).loc main_arg2))) := by
  rw [Value.flushed3]
  unfold out0_3
  rw [View.canon_unit_zero hz]
  simp only [View.ld_unit_zero (S := S2x1024x64) hz]
  show (k0_pay1 (F := Ideal) (iblk m c 0 t) (iblk m c 1 t) (iblk m c 2 t) : S2x1024x64.Idx → EReal)
      = fun y : S2x1024x64.Idx => G (m ((c : Thread nD τ).loc main_arg0)) (m ((c : Thread nD τ).loc main_arg1))
          (m ((c : Thread nD τ).loc main_arg2)) (((cfg0.win 3).blk t).view.emb y)
  funext y
  obtain ⟨b, r, d, rfl⟩ : ∃ (b : Fin 2) (r : Fin 1024) (d : Fin 64), y = ix3 b r d := ⟨y 0, y 1, y 2, eq_ix3 y⟩
  refine (Body.pay_apply (iblk m c 0 t) (iblk m c 1 t) (iblk m c 2 t) b r d).trans ?_
  rw [emb3 t b r d]
  show _ = Gc (m ((c : Thread nD τ).loc main_arg0)) (m ((c : Thread nD τ).loc main_arg1))
      (m ((c : Thread nD τ).loc main_arg2)) (bat t b) r d
  unfold Gc
  simp only [iblk0_apply, iblk1_apply, iblk2_apply]

/-- An index of the result array is in point t's block iff each coordinate is in the block's range on its axis. -/
theorem mem_blk (t : Fin cfg0.N) (i : S64x1024x64.Idx) :
    i ∈ ((cfg0.win 3).blk t).view.set ↔ ∀ a : Fin 3, win0_3.index t a * S2x1024x64.size a ≤ (i a).val
      ∧ (i a).val < win0_3.index t a * S2x1024x64.size a + S2x1024x64.size a := by
  show i ∈ ((View.whole main_v0).slice (win0_3.rect t)).set ↔ _
  rw [View.set_slice_whole, Rect.mem_set_unit]
  exact Iff.rfl

/-- Every index of the result array is in some point's block: batch i belongs to point i / 2. -/
theorem cover (i : S64x1024x64.Idx) :
    ∃ t : Fin cfg0.N, (cfg0.win 3).flush t = true ∧ i ∈ ((cfg0.win 3).blk t).view.set := by
  have hN : cfg0.N = 32 := N_0
  have hi0 : (i 0).val < 64 := (i 0).isLt
  have hi1 : (i 1).val < 1024 := (i 1).isLt
  have hi2 : (i 2).val < 64 := (i 2).isLt
  obtain ⟨t, ht⟩ : ∃ t : Fin cfg0.N, t.val = (i 0).val / 2 := ⟨⟨(i 0).val / 2, by omega⟩, rfl⟩
  obtain ⟨-, -, -, ⟨h0, h1, h2⟩⟩ := idx_facts t
  refine ⟨t, flush0_3 t, ?_⟩
  rw [mem_blk]
  intro a
  match a with
  | ⟨0, _⟩ =>
    show win0_3.index t (0 : Fin 3) * 2 ≤ (i 0).val ∧ (i 0).val < win0_3.index t (0 : Fin 3) * 2 + 2
    rw [h0, ht]; omega
  | ⟨1, _⟩ =>
    show win0_3.index t (1 : Fin 3) * 1024 ≤ (i 1).val ∧ (i 1).val < win0_3.index t (1 : Fin 3) * 1024 + 1024
    rw [h1]; omega
  | ⟨2, _⟩ =>
    show win0_3.index t (2 : Fin 3) * 64 ≤ (i 2).val ∧ (i 2).val < win0_3.index t (2 : Fin 3) * 64 + 64
    rw [h2]; omega

/-- THE RESULT ARRAY after the run: the attention of the three arguments, in the first arrangement. -/
theorem final (c : Dev nD) : (dats m 0 c).arrAt 3 cfg0.N
    = G (m ((c : Thread nD τ).loc main_arg0)) (m ((c : Thread nD τ).loc main_arg1)) (m ((c : Thread nD τ).loc main_arg2)) :=
  (dats m 0 c).arrAt_eq_of_cover 3 _ (fun t _ => flushed_eq m c t) cover

/-- The run, read: the result array at the attention of the arguments, the arguments unchanged. -/
theorem run : θ_run defs (onTc (τ := τ) (main (F := Ideal))) ⟨m, fun _ => 0, ρ⟩ fun r => ∀ c : Dev nD,
      r.2.mem ((c : Thread nD τ).loc main_v0)
        = G (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (Value.run_blocks m ρ)

end Cert.KernelIdeal.Hand

end
-- ==== Proof.RefValue.lean ====
/-
  The reference, read at an index: it computes the second arrangement.

  The reference takes the batched inner products of the query and key rows, divides them by 8, subtracts from each row
  its largest entry (taken by a reduce from −∞ and once more against −∞), exponentiates, divides each row by its sum
  (started from 0) and multiplies by the value rows, batched. Stage by stage, through the generated index lemmas, entry
  (b, r, d) of its result is Attention.lean's `attnR` over `scoreR`: `result_eq`. No finiteness is needed for this: it is
  a re-reading of the same operations.
-/
import proofs.«106338_j3435973837236_2_alg».proof.Proof.Gen.ReferenceIdeal.Read
import proofs.«106338_j3435973837236_2_alg».proof.Proof.Attention
import proofs.«106338_j3435973837236_2_alg».proof.Proof.LibLastAxis
import Idealize.ShloMosaic.Lib.ValueIdx
import Idealize.ShloMosaic.PureOps.Ideal.Laws

noncomputable section

open scoped BigOperators

namespace Cert.ReferenceIdeal.RefValue

open Cert.ReferenceIdeal Cert.ReferenceIdeal.Gen Cert.ReferenceIdeal.Read Idealize.ShloMosaic Idealize.ShloMosaic.ValueIdx
open Cert.Attn Cert.Lib.LastAxis

variable (x0 x1 x2 : (⟨S64x1024x64, .f32⟩ : BufTy).Contents (Elt Ideal))

/-- A scaled score at (b, r, c): the inner product of query row r with key row c of batch b, divided by 8. -/
theorem scaled_at (b : Fin 64) (r c : Fin 1024) :
    val_main_v2 (F := Ideal) x0 x1 (ix3 b r c)
      = scoreR (fun e : Fin 64 => x0 (ix3 b r e)) (fun e : Fin 64 => x1 (ix3 b c e)) := by
  have el : ∀ k : Fin 64, lidx_main_v0 (ix3 b r c) k = ix3 b r k := fun k =>
    funext fun a => Fin.ext (by match a with | ⟨0, _⟩ => rfl | ⟨1, _⟩ => rfl | ⟨2, _⟩ => rfl)
  have er : ∀ k : Fin 64, ridx_main_v0 (ix3 b r c) k = ix3 b c k := fun k =>
    funext fun a => Fin.ext (by match a with | ⟨0, _⟩ => rfl | ⟨1, _⟩ => rfl | ⟨2, _⟩ => rfl)
  rw [val_main_v2_apply, val_main_v0_apply, val_main_v1_apply, val_main_cst_apply]
  simp only [el, er]
  rfl

/-- The row maximum at (b, r): the largest scaled score of the row, taken once more against −∞. -/
theorem rowmax_at (b : Fin 64) (r : Fin 1024) :
    val_main_v5 (F := Ideal) x0 x1 (ix2 b r)
      = max ⊥ (rowMax (fun c : Fin 1024 => val_main_v2 (F := Ideal) x0 x1 (ix3 b r c))) := by
  rw [val_main_v5_apply, val_main_v4_apply, val_main_cst_1_apply]
  unfold val_main_v3
  rw [hostReduce_last (A := 64) (B := 1024) (C := 1024) (FloatOps.maximumf (F := Ideal) (φ := .f32))
      reducesTo_S64x1024x1024_S64x1024_d2 (by decide) (val_main_v2 (F := Ideal) x0 x1) (val_main_cst_0 (F := Ideal)) h_S_ b r,
    val_main_cst_0_apply]
  show max (Ideal.ofBits .f32 0xFF800000#32)
      ((Finset.univ : Finset (Fin 1024)).fold max (Ideal.ofBits .f32 0xFF800000#32) _) = _
  rw [neg_inf_word]
  rfl

/-- A weight at (b, r, c): the exponential of the scaled score less the row maximum. -/
theorem weight_at (b : Fin 64) (r c : Fin 1024) :
    val_main_v9 (F := Ideal) x0 x1 (ix3 b r c)
      = Ideal.exp (val_main_v2 (F := Ideal) x0 x1 (ix3 b r c)
          - max ⊥ (rowMax (fun c' : Fin 1024 => val_main_v2 (F := Ideal) x0 x1 (ix3 b r c')))) := by
  have e : idx_main_v6 (idx_main_v7 (ix3 b r c)) = ix2 b r :=
    funext fun a => Fin.ext (by match a with | ⟨0, _⟩ => rfl | ⟨1, _⟩ => rfl)
  rw [val_main_v9_apply, val_main_v8_apply, val_main_v7_apply, val_main_v6_apply, e, rowmax_at]
  rfl

/-- A normalised weight at (b, r, c): the weight divided by the sum, started from 0, of the row's weights. -/
theorem normalised_at (b : Fin 64) (r c : Fin 1024) :
    val_main_v13 (F := Ideal) x0 x1 (ix3 b r c)
      = Ideal.div (val_main_v9 (F := Ideal) x0 x1 (ix3 b r c))
          (0 + ∑ j : Fin 1024, val_main_v9 (F := Ideal) x0 x1 (ix3 b r j)) := by
  have e : idx_main_v11 (idx_main_v12 (ix3 b r c)) = ix2 b r :=
    funext fun a => Fin.ext (by match a with | ⟨0, _⟩ => rfl | ⟨1, _⟩ => rfl)
  have ek : ∀ j : Fin 1024, idx_main_v10 (ix2 b r) j = ix3 b r j := fun j =>
    funext fun a => Fin.ext (by match a with | ⟨0, _⟩ => rfl | ⟨1, _⟩ => rfl | ⟨2, _⟩ => rfl)
  rw [val_main_v13_apply, val_main_v12_apply, val_main_v11_apply, e, val_main_v10_apply, val_main_cst_2_apply]
  simp only [ek]
  show Ideal.div _ (Ideal.ofBits .f32 0x00000000#32 + _) = _
  rw [Ideal.ofBits_zero_f32]

/-- THE REFERENCE'S RESULT is the second arrangement of the attention, entry by entry. -/
theorem result_eq : val_main_v14 (F := Ideal) x0 x1 x2 = GR x0 x1 x2 := by
  funext i
  obtain ⟨b, r, d, rfl⟩ : ∃ (b : Fin 64) (r : Fin 1024) (d : Fin 64), i = ix3 b r d := ⟨i 0, i 1, i 2, eq_ix3 i⟩
  have el : ∀ k : Fin 1024, lidx_main_v14 (ix3 b r d) k = ix3 b r k := fun k =>
    funext fun a => Fin.ext (by match a with | ⟨0, _⟩ => rfl | ⟨1, _⟩ => rfl | ⟨2, _⟩ => rfl)
  have er : ∀ k : Fin 1024, ridx_main_v14 (ix3 b r d) k = ix3 b k d := fun k =>
    funext fun a => Fin.ext (by match a with | ⟨0, _⟩ => rfl | ⟨1, _⟩ => rfl | ⟨2, _⟩ => rfl)
  rw [val_main_v14_apply]
  simp only [el, er, normalised_at, weight_at, scaled_at]
  rfl

end Cert.ReferenceIdeal.RefValue

end
-- ==== Proof.LibFinite.lean ====
/-
  A finiteness test read back. The predicate  all(|x| < +inf)  of a float array x prints as a reduction by "and", from the
  constant 1, of the entrywise comparison of |x| with the broadcast scalar whose word is the +inf pattern. On the extended
  reals |x| is max(x, -x) and that word is ⊤; so if the reduction, taken over all axes, is 1, every entry of x is a real
  number: an entry ⊤ or ⊥ would have |x| = ⊤, which is not below ⊤. Generic in the shape.
-/
import Idealize.ShloMosaic.PureOps.Ideal
import Idealize.ShloMosaic.PureOps.Ideal.Laws
import Idealize.ShloMosaic.Lib.ReduceAll
import Idealize.ShloMosaic.Lib.ValueIdx
import Idealize.ShloMosaic.Lib.Pipeline.Value

noncomputable section

namespace Cert.LibFinite

open Idealize.ShloMosaic Idealize.ShloMosaic.ValueIdx

instance : Subsingleton (⟨0, ![]⟩ : Shape).Idx := ⟨fun a b => funext fun d => d.elim0⟩

/-- The +inf pattern denotes ⊤. -/
theorem inf_word : Ideal.ofBits .f32 0x7F800000#32 = (⊤ : EReal) := by
  simp [Ideal.ofBits, Ideal.ieee]

/-- An extended real whose absolute value is below ⊤ is a real number. -/
theorem real_of_abs_lt_top (v : EReal) (h : max v (-v) < ⊤) : ∃ r : ℝ, v = (r : EReal) := by
  induction v using EReal.rec with
  | bot => exact absurd h (by simp)
  | coe r => exact ⟨r, rfl⟩
  | top => exact absurd h (by simp)

/-- all(|x| < +inf) = 1 gives: every entry of x is real. -/
theorem real_of_all {S : Shape} {axes : List (Fin S.rank)} (x : FVec Ideal S .f32)
    (bc : (⟨0, ![]⟩ : Shape).BroadcastsInDim S ![]) (h : S.ReducesTo axes ⟨0, ![]⟩) (hu : 0 < (⟨0, ![]⟩ : Shape).numel)
    (j : (⟨0, ![]⟩ : Shape).Idx)
    (e : Host.reduce IntOp.andi
        (cmpf .olt (Host.absf x) (broadcastInDim S ![] bc (constant ⟨0, ![]⟩ .f32 0x7F800000#32)))
        (constantI ⟨0, ![]⟩ 1 1#1) h hu j = 1#1) :
    ∀ i, ∃ r : ℝ, x i = (r : EReal) := fun i => by
  have hi := Host.reduce_andi_all _ _ h hu j e i
  have hb : broadcastInDim S ![] bc (constant (F := Ideal) ⟨0, ![]⟩ .f32 0x7F800000#32) i = (⊤ : EReal) := by
    rw [broadcastInDim_apply ![] bc _ i ix0 fun d => d.elim0]
    exact inf_word
  have hc : Ideal.cmp .olt (max (x i) (-(x i))) (broadcastInDim S ![] bc (constant (F := Ideal) ⟨0, ![]⟩ .f32 0x7F800000#32) i) = 1#1 := hi
  rw [hb] at hc
  refine real_of_abs_lt_top (x i) ?_
  by_contra hlt
  have : Ideal.cmp .olt (max (x i) (-(x i))) ⊤ = 0#1 := by
    show BitVec.ofBool (decide (max (x i) (-(x i)) < ⊤)) = 0#1
    rw [decide_eq_false hlt]; rfl
  rw [this] at hc
  exact absurd hc (by decide)

end Cert.LibFinite

end
-- ==== Proof.Finite.lean ====
/-
  The precondition, read back: every entry of the three arguments is a real number.

  The predicate is  all(|q| < +inf) ∧ all(|k| < +inf) ∧ all(|v| < +inf)  as one bit. If it is 1, each of the three
  conjuncts is 1, and each says that no entry of its array is +∞ or −∞.
-/
import proofs.«106338_j3435973837236_2_alg».proof.Proof.Gen.Pre_finite_inputs
import proofs.«106338_j3435973837236_2_alg».proof.Proof.LibFinite
import Idealize.ShloMosaic.Lib.Affine
import Idealize.ShloMosaic.Lib.ValueIdx

noncomputable section

namespace Cert.Finite

open Idealize.ShloMosaic Idealize.ShloMosaic.ValueIdx

variable [Cert.Pre_finite_inputs.Facts]

/-- If the finiteness predicate of three arrays is 1, all their entries are real numbers. -/
theorem real_of_pre (x0 x1 x2 : FVec Ideal Cert.Pre_finite_inputs.S64x1024x64 .f32)
    (h : Cert.Pre_finite_inputs.fn (F := Ideal) x0 x1 x2 = fun _ => 1#1) :
    (∀ i, ∃ r : ℝ, x0 i = (r : EReal)) ∧ (∀ i, ∃ r : ℝ, x1 i = (r : EReal)) ∧ (∀ i, ∃ r : ℝ, x2 i = (r : EReal)) := by
  have h0 := congrFun h ix0
  dsimp only [Cert.Pre_finite_inputs.fn] at h0
  obtain ⟨h01, h2⟩ := IntOp.andi_eq_one.1 h0
  obtain ⟨h0', h1⟩ := IntOp.andi_eq_one.1 h01
  exact ⟨Cert.LibFinite.real_of_all x0 _ _ _ ix0 h0', Cert.LibFinite.real_of_all x1 _ _ _ ix0 h1,
    Cert.LibFinite.real_of_all x2 _ _ _ ix0 h2⟩

end Cert.Finite

end
-- ==== Proof.lean ====
/-
  The five claims for the attention kernel against its reference.

  The three frames are the generated ones (the reference's is its generated run with the result dropped), and the kernel's
  idealization rewrote nothing. For the algebraic claim: after its run the idealized kernel's result array is the
  attention of the three arguments in the first arrangement (each row's weighted sum of values scaled once by the
  reciprocal of its normaliser, the queries scaled by ⅛ before the scores), and the reference's is the second arrangement
  (each weight divided by its row's normaliser before it meets its value, the scores divided by 8). Under the
  precondition every entry of the arguments is a real number, and on arrays of real numbers the two arrangements are one
  array: the distributive law in ℝ, which the extended reals do not have at ±∞.
-/
import proofs.«106338_j3435973837236_2_alg».proof.Defs
import proofs.«106338_j3435973837236_2_alg».proof.Proof.Gen.Kernel
import proofs.«106338_j3435973837236_2_alg».proof.Proof.Gen.Kernel.Skeleton
import proofs.«106338_j3435973837236_2_alg».proof.Proof.Gen.Kernel.Launch
import proofs.«106338_j3435973837236_2_alg».proof.Proof.Gen.Kernel.Points
import proofs.«106338_j3435973837236_2_alg».proof.Proof.Gen.Kernel.Frame
import proofs.«106338_j3435973837236_2_alg».proof.Proof.Gen.KernelIdeal
import proofs.«106338_j3435973837236_2_alg».proof.Proof.Gen.KernelIdeal.Skeleton
import proofs.«106338_j3435973837236_2_alg».proof.Proof.Gen.KernelIdeal.Launch
import proofs.«106338_j3435973837236_2_alg».proof.Proof.Gen.KernelIdeal.Points
import proofs.«106338_j3435973837236_2_alg».proof.Proof.Gen.KernelIdeal.Frame
import proofs.«106338_j3435973837236_2_alg».proof.Proof.Gen.ReferenceIdeal
import proofs.«106338_j3435973837236_2_alg».proof.Proof.Gen.Pre_finite_inputs
import proofs.«106338_j3435973837236_2_alg».proof.Proof.Gen.KernelIdeal.Value
import proofs.«106338_j3435973837236_2_alg».proof.Proof.Gen.ReferenceIdeal.Run
import proofs.«106338_j3435973837236_2_alg».proof.Proof.Gen.ReferenceIdeal.Read
import proofs.«106338_j3435973837236_2_alg».proof.Proof.Attention
import proofs.«106338_j3435973837236_2_alg».proof.Proof.KernelValue
import proofs.«106338_j3435973837236_2_alg».proof.Proof.RefValue
import proofs.«106338_j3435973837236_2_alg».proof.Proof.Finite
import Idealize.ShloMosaic.Adequacy
import Idealize.ShloMosaic.Init

noncomputable section

namespace Cert.Proof

open Idealize.ShloMosaic Idealize.ShloMosaic.TcCoe Idealize.SL.Sem

/-- The reference's frame: its generated run with the result dropped. -/
theorem frame_ri : Cert.frame_ReferenceIdeal (hReferenceIdeal := Cert.ReferenceIdeal.Gen.facts)
    (hPre_finite_inputs := Cert.Pre_finite_inputs.Gen.facts) := fun m ρ _ =>
  (θ_run Cert.ReferenceIdeal.defs _ _).mono (fun _ h c => (h c).2) (Cert.ReferenceIdeal.Value.run (F := Ideal) m ρ)

/-- Both results are the attention of the arguments: the kernel's in the first arrangement by its run, the reference's in
    the second by its run, and the two agree because the arguments hold real numbers. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨_, Cert.KernelIdeal.Hand.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v14_eq, Cert.ReferenceIdeal.RefValue.result_eq, (hagree c).1, (hagree c).2.1,
    (hagree c).2.2]
  obtain ⟨h0, h1, h2⟩ := Cert.Finite.real_of_pre _ _ _ (hpre c)
  exact Cert.Attn.G_eq _ _ _ h0 h1 h2

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ, fun m ρ _ => Cert.KernelIdeal.Gen.frame m ρ, frame_ri, trivial, algebraic⟩

end Cert.Proof

end
